-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024 : Shape := ⟨1, ![1024]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S1024 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg0 main_v4
  let main_c_1 : IVec S_ 32 := constantI S_ 32 999#32
  let main_v6 : IVec S1024 32 := broadcastInDim S1024 ![] bcast_S_S1024 main_c_1
  let main_v7 : IVec S1024 1 := cmpi .sle main_arg0 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Kernel.lean ====
abbrev S1024 : Shape := ⟨1, ![1024]⟩
abbrev S1000x128 : Shape := ⟨2, ![1000, 128]⟩
abbrev S1024x128 : Shape := ⟨2, ![1024, 128]⟩
abbrev S64 : Shape := ⟨1, ![64]⟩
abbrev S64x128 : Shape := ⟨2, ![64, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S1024, .i32⟩
  | .hbm, ⟨1, _⟩ => ⟨S1000x128, .f32⟩
  | .hbm, ⟨2, _⟩ => ⟨S1024x128, .f32⟩
  | .local .scVector .vmem, ⟨0, _⟩ => ⟨S64, .i32⟩
  | .local .scVector .vmem, ⟨1, _⟩ => ⟨S64x128, .f32⟩
  | _, _ => ⟨S1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1000x128_S1000x128_0_0 : ∀ a, (![0, 0] : Fin 2 → Nat) a + S1000x128.size a ≤ S1000x128.size a
  gathers_S1000x128_S64x128 : S1000x128.Gathers 0 S64x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64.size a ≤ S1024.size a
  k0_off2_inb : ∀ i : grid0.Coords, ∀ a, (k0_off2 i) a + S64x128.size a ≤ S1024x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S1024 : Shape := ⟨1, ![1024]⟩
abbrev S1000x128 : Shape := ⟨2, ![1000, 128]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩

abbrev nBuf : Space → Nat
  | .hbm => 25
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1000x128, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1, .i32⟩
  | .hbm, ⟨11, _⟩ => ⟨S_, .i32⟩
  | .hbm, ⟨12, _⟩ => ⟨S1024x1, .i32⟩
  | .hbm, ⟨13, _⟩ => ⟨S1024x1, .i1⟩
  | .hbm, ⟨14, _⟩ => ⟨S1x1, .i32⟩
  | .hbm, ⟨15, _⟩ => ⟨S1024x1, .i32⟩
  | .hbm, ⟨16, _⟩ => ⟨S1024x1, .i1⟩
  | .hbm, ⟨17, _⟩ => ⟨S1024x1, .i1⟩
  | .hbm, ⟨18, _⟩ => ⟨S_, .i1⟩
  | .hbm, ⟨19, _⟩ => ⟨S1024, .i1⟩
  | .hbm, ⟨20, _⟩ => ⟨S1024x128, .f32⟩
  | .hbm, ⟨21, _⟩ => ⟨S1024x128, .i1⟩
  | .hbm, ⟨22, _⟩ => ⟨S_, .f32⟩
  | .hbm, ⟨23, _⟩ => ⟨S1024x128, .f32⟩
  | .hbm, ⟨24, _⟩ => ⟨S1024x128, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x128_0 : S1024.BroadcastsInDim S1024x128 (![0] : Fin 1 → Fin S1024x128.rank)
  bcast_S_S1024x128 : S_.BroadcastsInDim S1024x128 (![] : Fin 0 → Fin S1024x128.rank)
  gather_S1000x128_S1024x1_S1024x128_1_0_n_n_0_1_1128_wf : GatherDims.WF S1000x128 S1024x1 S1024x128 [1] [0] [] [0] [] 1 ![1, 128]

variable [Facts₀]

def gather_S1000x128_S1024x1_S1024x128_1_0_n_n_0_1_1128 : GatherDims S1000x128 S1024x1 S1024x128 where
  offsetDims := [1]
  collapsedSliceDims := [0]
  operandBatchingDims := []
  startIndicesBatchingDims := []
  startIndexMap := [0]
  indexVectorDim := 1
  sliceSizes := ![1, 128]
  wf := gather_S1000x128_S1024x1_S1024x128_1_0_n_n_0_1_1128_wf

class Facts : Prop extends Facts₀ where

variable [Facts]
-- ==== Proof.Spec.lean ====
/-
  What both programs compute, as one function of the two argument arrays: row `n` of the result is the row of the
  table that token `n` names. A token is read as an unsigned word and, so that the function is total, clamped to
  the last row; on tokens in range (`InRange`) the clamp is the identity.
-/
import Idealize.ShloMosaic.Lib.ValueIdx

noncomputable section

namespace Cert.Spec

open Idealize.ShloMosaic Idealize.ShloMosaic.ValueIdx

/-- The shapes of the tokens, the table and the result. -/
abbrev STok : Shape := ⟨1, ![1024]⟩
abbrev STab : Shape := ⟨2, ![1000, 128]⟩
abbrev SOut : Shape := ⟨2, ![1024, 128]⟩

/-- Every token names a row of the table. -/
def InRange (tok : IVec STok 32) : Prop := ∀ j, (tok j).toNat < 1000

/-- The row of the table a word names (clamped to the last row). -/
def row (w : BitVec 32) : Fin 1000 := ⟨min w.toNat 999, by omega⟩

theorem row_val_of_lt {w : BitVec 32} (h : w.toNat < 1000) : (row w).val = w.toNat := by
  show min w.toNat 999 = w.toNat
  omega

/-- The embedding lookup: result `(n, k)` is the table at `(row (tok n), k)`. -/
def G {α : Type} (tok : IVec STok 32) (tab : STab.Idx → α) : SOut.Idx → α :=
  fun j => tab (ix2 (row (tok (ix1 (⟨(j 0).val, idx2_lt0 j⟩ : Fin 1024)))) (⟨(j 1).val, idx2_lt1 j⟩ : Fin 128))

theorem G_apply {α : Type} (tok : IVec STok 32) (tab : STab.Idx → α) (n : Fin 1024) (k : Fin 128) :
    G tok tab (ix2 n k) = tab (ix2 (row (tok (ix1 n))) k) := rfl

end Cert.Spec

end
-- ==== Proof.PreRange.lean ====
/-
  The precondition read back. The printed predicate is the conjunction of two `jnp.all`s; the second one says of
  every token `v` that `0 ≤ v` and `v ≤ 999` as signed words. Hence, when the predicate answers 1, every token,
  read as an unsigned word, is below 1000: it names a row of the table.
-/
import proofs.«218014_g22170621182349_cont_8to1_1384_14_alg».proof.Pre_input_domain
import proofs.«218014_g22170621182349_cont_8to1_1384_14_alg».proof.Proof.Spec
import Idealize.ShloMosaic.Lib.ReduceAll
import Idealize.ShloMosaic.Lib.ValueIdx

noncomputable section

namespace Cert.Proof.PreRange

open Idealize.ShloMosaic

/-- The scalar shape has one index. -/
instance : Subsingleton Cert.Pre_input_domain.S_.Idx := ⟨fun a b => funext fun d => d.elim0⟩

/-- A word below 1000 is nonnegative as a signed word: its signed and unsigned readings agree. -/
theorem toInt_of_lt {v : BitVec 32} (h : v.toNat < 1000) : v.toInt = v.toNat := by
  rw [BitVec.toInt_eq_toNat_cond]
  split
  · rfl
  · omega

/-- A word that is signed-`≥ 0` and signed-`≤ 999` is, unsigned, below 1000. -/
theorem lt_of_cmpi {v : BitVec 32} (h0 : IntOp.cmpi .sge v 0#32 = 1#1) (h1 : IntOp.cmpi .sle v 999#32 = 1#1) :
    v.toNat < 1000 := by
  rw [IntOp.cmpi_sge] at h0
  rw [IntOp.cmpi_sle] at h1
  simp only [BitVec.toInt_eq_toNat_cond, BitVec.toNat_ofNat, Nat.reducePow, Nat.reduceMod] at h0 h1
  have := v.isLt
  split at h0 <;> split at h1 <;> omega

/-- If the precondition holds, every token names a row of the table. -/
theorem inRange_of_pre {F : FTy → Type} [FloatOps F] [Cert.Pre_input_domain.Facts]
    (tok : IVec Cert.Pre_input_domain.S1024 32) (tab : FVec F Cert.Pre_input_domain.S1000x128 .f32)
    (h : Cert.Pre_input_domain.fn (F := F) tok tab = fun _ => 1#1) : Cert.Spec.InRange tok := by
  have e := congrFun h ValueIdx.ix0
  dsimp only [Cert.Pre_input_domain.fn] at e
  have e2 := (IntOp.andi_eq_one.1 e).2
  intro j
  have e3 := Host.reduce_andi_all _ _ _ _ _ e2 j
  obtain ⟨h0, h1⟩ := IntOp.andi_eq_one.1 e3
  exact lt_of_cmpi h0 h1

end Cert.Proof.PreRange

end
-- ==== Proof.KBViews.lean ====
/-
  The embedding lookup on the sixteen vector subcores of SparseCore 0, one task each. Task `s` copies tokens
  `[64 s, 64 s + 64)` into its index scratch, gathers the rows of the table those tokens name into its row scratch
  (one indirect stream over the index scratch), and copies the row scratch to rows `[64 s, 64 s + 64)` of the result.
  Each copy is waited for before the next starts, so no buffer is touched while a transfer on it is pending.
  Here: the program as the launch theorem sees it, what the launch's handshakes carry (each task its 64 tokens, a
  sixteenth share of the table and its 64 result rows, brought back with the result rows at the lookup `Spec.G` of the
  launch contents), the task's views of the arrays, and that the list the gather reads is in range.
-/
import proofs.«218014_g22170621182349_cont_8to1_1384_14_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«218014_g22170621182349_cont_8to1_1384_14_alg».proof.Proof.Gen.Kernel
import proofs.«218014_g22170621182349_cont_8to1_1384_14_alg».proof.Proof.Gen.Kernel.Skeleton
import proofs.«218014_g22170621182349_cont_8to1_1384_14_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The tokens, the table and the result, as locations of device `d`. -/
abbrev tLoc (d : Dev nD) : Loc nD τ sig := (SparseCore.T d).loc main_arg0
abbrev wLoc (d : Dev nD) : Loc nD τ sig := (SparseCore.T d).loc main_arg1
abbrev oLoc (d : Dev nD) : Loc nD τ sig := (SparseCore.T d).loc main_v0

local notation "tV" => (Memref.whole Cert.Kernel.main_arg0_scv : Memref Cert.Kernel.sig Kind.scVector Space.hbm Cert.Kernel.S1024 EltTy.i32)
local notation "wV" => (Memref.whole Cert.Kernel.main_arg1_scv : Memref Cert.Kernel.sig Kind.scVector Space.hbm Cert.Kernel.S1000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S64 EltTy.i32)
local notation "rV" => (Memref.whole Cert.Kernel.cc0_scratch1 : Memref Cert.Kernel.sig Kind.scVector Space.vmem Cert.Kernel.S64x128 EltTy.f32)

/-- The sixteen blocks of 64 tokens and of 64 result rows. -/
theorem tdiv : 16 ∣ S1024.size 0 := ⟨64, rfl⟩
theorem odiv : 16 ∣ S1024x128.size 0 := ⟨64, rfl⟩
abbrev trow (i : Fin 16) : Rect S1024 := Rect.part (s := S1024) (a₀ := 0) tdiv i
abbrev orow (i : Fin 16) : Rect S1024x128 := Rect.part (s := S1024x128) (a₀ := 0) odiv i
abbrev tRowSet (i : Fin 16) : Finset S1024.Idx := ((tV).view.slice (trow i)).set
abbrev oRowSet (i : Fin 16) : Finset S1024x128.Idx := ((oV).view.slice (orow i)).set

/-- Task `i`'s share of the table: the full share cut into sixteen pieces. -/
abbrev wq (i : Fin 16) : PosShare TreeShare := pieceOf fullShare 16 (by decide) i

/-- The lookup of the launch contents: what the result holds at the end. -/
abbrev GG (d : Dev nD) : Buf (Elt F) (oLoc d) := Cert.Spec.G (m (tLoc d)) (m (wLoc d))

/-- What the proof asks of the launch memory: every token names a row of the table. -/
def PreOK : Prop := ∀ d : Dev nD, Cert.Spec.InRange (m (tLoc d))

variable [FloatOps F]

/-! ## What the handshakes carry -/

abbrev tPts (d : Dev nD) : sProp 𝕄 := tLoc d ↦{fullShare} m (tLoc d)
abbrev wPts (d : Dev nD) : sProp 𝕄 := wLoc d ↦{fullShare} m (wLoc d)
abbrev oPts (d : Dev nD) (f : Buf (Elt F) (oLoc d)) : sProp 𝕄 := oLoc d ↦{fullShare} f
abbrev tRowPts (d : Dev nD) (i : Fin 16) : sProp 𝕄 := tLoc d ↦[tRowSet i]{fullShare} m (tLoc d)
abbrev wShPts (d : Dev nD) (i : Fin 16) : sProp 𝕄 := wLoc d ↦{wq i} m (wLoc d)
abbrev oRowPts (d : Dev nD) (i : Fin 16) (f : Buf (Elt F) (oLoc d)) : sProp 𝕄 := oLoc d ↦[oRowSet i]{fullShare} f

/-- The one call takes the three arrays whole; each task its block of tokens, its share of the table and its block
    of result rows, and brings them back, the result rows at the lookup. -/
def P : (K (F := F)).Pay (nD := nD) (Val := Elt F) (Name := ℕ) (U := UU) where
  st := fun q d _ => match q with | 0 => iprop(tPts m d ∗ wPts m d ∗ oPts d (m (oLoc d)))
  dn := fun q d _ => match q with | 0 => iprop(tPts m d ∗ wPts m d ∗ oPts d (GG m d))
  go := fun q d _ i => match q with
    | 0 => iprop(tRowPts m d (Fin.cast nSub_zero i) ∗ wShPts m d (Fin.cast nSub_zero i) ∗ oRowPts d (Fin.cast nSub_zero i) (m (oLoc d)))
  td := fun q d _ i => match q with
    | 0 => iprop(tRowPts m d (Fin.cast nSub_zero i) ∗ wShPts m d (Fin.cast nSub_zero i) ∗ oRowPts d (Fin.cast nSub_zero i) (GG m d))
  x := fun _ _ => iprop(emp)

instance P_storable : (P (F := F) m).IsStorable where
  st q d _ := match q with
    | 0 => (inferInstance : BI.Storable (upEmb : UEmb _ 𝕄) iprop(tPts m d ∗ wPts m d ∗ oPts d (m (oLoc d))))
  dn q d _ := match q with
    | 0 => (inferInstance : BI.Storable (upEmb : UEmb _ 𝕄) iprop(tPts m d ∗ wPts m d ∗ oPts d (GG m d)))
  go q d _ i := match q with
    | 0 => (inferInstance : BI.Storable (upEmb : UEmb _ 𝕄)
      iprop(tRowPts m d (Fin.cast nSub_zero i) ∗ wShPts m d (Fin.cast nSub_zero i) ∗ oRowPts d (Fin.cast nSub_zero i) (m (oLoc d))))
  td q d _ i := match q with
    | 0 => (inferInstance : BI.Storable (upEmb : UEmb _ 𝕄)
      iprop(tRowPts m d (Fin.cast nSub_zero i) ∗ wShPts m d (Fin.cast nSub_zero i) ∗ oRowPts d (Fin.cast nSub_zero i) (GG m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 1 := rfl
omit [FloatOps F] in
theorem bound_one : grid0.bound 1 = 16 := rfl
abbrev jL (L : grid0.Coords) : Fin 16 := Fin.cast bound_one (L 1)

omit [FloatOps F] in
/-- The one SparseCore of the grid is number 0. -/
theorem L0_val (L : grid0.Coords) : (L 0).val = 0 := by
  have h := (L 0).isLt
  have hb : grid0.bound 0 = 1 := rfl
  omega

/-- The task's block of tokens and of result rows, and the whole table, as the task addresses them. -/
abbrev trowK (L : grid0.Coords) : Rect S1024 := Rect.unit (s := S1024) (k0_off1 L) S64.size (k0_off1_inb L)
abbrev orowK (L : grid0.Coords) : Rect S1024x128 := Rect.unit (s := S1024x128) (k0_off2 L) S64x128.size (k0_off2_inb L)
abbrev tRowK (L : grid0.Coords) : Memref sig .scVector .hbm S64 .i32 := (tV).slice (trowK L) (fun _ => rfl)
abbrev oRowK (L : grid0.Coords) : Memref sig .scVector .hbm S64x128 .f32 := (oV).slice (orowK L) (fun _ => rfl)
abbrev wAllK : Memref sig .scVector .hbm S1000x128 .f32 := (wV).slice (Rect.unit (s := S1000x128) ![0, 0] S1000x128.size inb_S1000x128_S1000x128_0_0) (fun _ => rfl)

omit [FloatOps F] in
theorem trowK_eq : trowK L = trow (jL L) := by
  have h0 := L0_val L
  unfold trowK trow Rect.part Rect.block
  congr 1 <;> funext a
  · rw [k0_off1_eq]
    match a with
    | 0 => simp [Shape.partIx, Shape.partSize, h0]; omega
  · match a with
    | 0 => simp [Shape.partSize]
omit [FloatOps F] in
theorem orowK_eq : orowK L = orow (jL L) := by
  have h0 := L0_val L
  unfold orowK orow Rect.part Rect.block
  congr 1 <;> funext a
  · rw [k0_off2_eq]
    match a with
    | 0 => simp [Shape.partIx, Shape.partSize, h0]; omega
    | 1 => simp [Shape.partIx, Shape.partSize]
  · match a with
    | 0 => simp [Shape.partSize]
    | 1 => simp [Shape.partSize]

omit [FloatOps F] in
theorem set_tRowK : (tRowK L).view.set = tRowSet (jL L) := by
  show ((tV).view.slice (trowK L)).set = ((tV).view.slice (trow (jL L))).set
  exact trowK_eq L ▸ rfl
omit [FloatOps F] in
theorem set_oRowK : (oRowK L).view.set = oRowSet (jL L) := by
  show ((oV).view.slice (orowK L)).set = ((oV).view.slice (orow (jL L))).set
  exact orowK_eq L ▸ rfl

omit [FloatOps F] in
theorem pts_tRowK (f : Buf (Elt F) (tLoc d)) :
    ((tRowK L).view.loc (V d (cV L) (jV L)) ↦[(tRowK L).view.set]{fullShare} f : sProp 𝕄) = tLoc d ↦[tRowSet (jL L)]{fullShare} f := by
  rw [set_tRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_wV (q : PosShare TreeShare) (f : Buf (Elt F) (wLoc d)) :
    ((wV).view.loc (V d (cV L) (jV L)) ↦{q} f : sProp 𝕄) = wLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three DMA semaphores of a task: the token copy's, the gather's, the write-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The list the gather reads is in range: what the token copy landed in the index scratch is the task's block of
    tokens, each below 1000. -/
theorem list_in_range (hpre : PreOK m) (fs : Buf (Elt F) ((V d (cV L) (jV L)).loc cc0_scratch0)) (pay : S64.Idx → Elt F .i32)
    (hpay : pay = (tRowK L).view.read (Elt F) (m (tLoc d))) :
    ∀ x, ((sV).view.read (Elt F) (View.write (Elt F) (sV).view fs pay Finset.univ) x).toNat < 1000 := by
  subst hpay; intro x
  rw [View.write_whole_univ]
  simp only [Memref.view_whole, View.read_whole]
  rw [show ∀ j, (tRowK L).view.read (Elt F) (m (tLoc d)) j = m (tLoc d) ((tRowK L).view.emb j) from fun j => (View.read_apply _ _).trans (cast_eq _ _)]
  exact hpre d _

end Tile

end Cert.Proof.KB

end
-- ==== Proof.LibGatherRows.lean ====
/-
  The SparseCore indirect gather read at an index, at rank 2 with the indexed axis 0: the gathered array's element
  `(i, c)` is the source's element `(row i, c)`, where `row i` is the row the offset list names for `i`; and the
  row a rank-1 offset list names for position `k` is its `k`-th word, read unsigned.
-/
import Idealize.ShloMosaic.Lib.SparseCore.Stream
import Idealize.ShloMosaic.Lib.ValueIdx

noncomputable section

namespace Cert.Lib.GatherRows

open Idealize.ShloMosaic Idealize.ShloMosaic.ValueIdx

variable {F : FTy → Type} {e : EltTy}

/-- A gather along axis 0 of a rank-2 source `[N, C]` into `[R, C]`, read at an index `x`: the source at the row the
    list names for `x`'s row, and at `x`'s own column. -/
theorem gatherPayload_apply {N C R : Nat} (hg : (⟨2, ![N, C]⟩ : Shape).Gathers 0 ⟨2, ![R, C]⟩)
    (g : (⟨2, ![N, C]⟩ : Shape).Idx → Elt F e)
    (r : Fin ((⟨2, ![R, C]⟩ : Shape).size hg.axis') → Fin ((⟨2, ![N, C]⟩ : Shape).size hg.axis))
    (x : (⟨2, ![R, C]⟩ : Shape).Idx) :
    SparseCore.gatherPayload hg g r x
      = g (ix2 (⟨(r ⟨(x 0).val, idx2_lt0 x⟩).val, (r ⟨(x 0).val, idx2_lt0 x⟩).isLt⟩ : Fin N) (⟨(x 1).val, idx2_lt1 x⟩ : Fin C)) := by
  unfold SparseCore.gatherPayload
  congr 1
  funext b
  apply Fin.ext
  match b with
  | ⟨0, _⟩ => exact congrArg Fin.val (Shape.Gathers.idx_axis hg r x)
  | ⟨1, _⟩ => exact Shape.Gathers.idx_of_ne hg r x ⟨1, Nat.one_lt_two⟩ Nat.one_ne_zero

/-- The same, with the named row given by its value: if the list names row `m` for `x`'s row, the gathered element at
    `x` is the source at `(m, x 1)`. (The form to use when the row is known through an equation of naturals.) -/
theorem gatherPayload_apply_of_val {N C R : Nat} (hg : (⟨2, ![N, C]⟩ : Shape).Gathers 0 ⟨2, ![R, C]⟩)
    (g : (⟨2, ![N, C]⟩ : Shape).Idx → Elt F e)
    (r : Fin ((⟨2, ![R, C]⟩ : Shape).size hg.axis') → Fin ((⟨2, ![N, C]⟩ : Shape).size hg.axis))
    (x : (⟨2, ![R, C]⟩ : Shape).Idx) (m : Fin N) (hm : (r ⟨(x 0).val, idx2_lt0 x⟩).val = m.val) :
    SparseCore.gatherPayload hg g r x = g (ix2 m (⟨(x 1).val, idx2_lt1 x⟩ : Fin C)) := by
  rw [gatherPayload_apply]
  congr 2
  exact Fin.ext hm

/-- A position in a rank-1 list of `n` entries is below `n`. -/
theorem lt_of_numel {n o : Nat} (hn : (⟨1, ![n]⟩ : Shape).numel = o) (k : Fin o) : k.val < n := by
  have h1 := k.isLt
  have h2 : (⟨1, ![n]⟩ : Shape).numel = n := Shape.numel_rank1 ![n]
  omega

/-- The row a rank-1 offset list names for position `k` is its `k`-th word, read unsigned. -/
theorem rows_val {n o z : Nat} (idx : (⟨1, ![n]⟩ : Shape).Idx → BitVec 32) (hn : (⟨1, ![n]⟩ : Shape).numel = o)
    (hin : ∀ x, (idx x).toNat < z) (k : Fin o) :
    (SparseCore.rows (F := F) idx hn hin k).val
      = (idx (ix1 (⟨k.val, lt_of_numel hn k⟩ : Fin n))).toNat := by
  unfold SparseCore.rows
  show (idx _).toNat = (idx _).toNat
  congr 2
  rw [Equiv.symm_apply_eq]
  apply Fin.ext
  rw [Shape.rowMajor_val_one]
  rfl

/-- The two together: a gather along axis 0 of `[N, C]` into `[R, C]` whose rows are named by a rank-1 list of words
    `idx`, read at `x`, is the source at row `idx (x 0)` (unsigned) and column `x 1`. -/
theorem gatherPayload_rows_apply {N C R n : Nat} (hg : (⟨2, ![N, C]⟩ : Shape).Gathers 0 ⟨2, ![R, C]⟩)
    (g : (⟨2, ![N, C]⟩ : Shape).Idx → Elt F e) (idx : (⟨1, ![n]⟩ : Shape).Idx → BitVec 32)
    (hn : (⟨1, ![n]⟩ : Shape).numel = (⟨2, ![R, C]⟩ : Shape).size hg.axis')
    (hin : ∀ x, (idx x).toNat < (⟨2, ![N, C]⟩ : Shape).size hg.axis) (x : (⟨2, ![R, C]⟩ : Shape).Idx) :
    SparseCore.gatherPayload hg g (SparseCore.rows (F := F) idx hn hin) x
      = g (ix2 (⟨(idx (ix1 (⟨(x 0).val, lt_of_numel hn ⟨(x 0).val, idx2_lt0 x⟩⟩ : Fin n))).toNat, hin _⟩ : Fin N)
            (⟨(x 1).val, idx2_lt1 x⟩ : Fin C)) :=
  gatherPayload_apply_of_val hg g _ x _ (rows_val idx hn hin _)

end Cert.Lib.GatherRows

end
-- ==== Proof.KBValue.lean ====
/-
  What one task leaves in its block of the result: row `64 s + a` of the result, column `b`, is the table at the
  row token `64 s + a` names, column `b` — the lookup `Spec.G` of the launch contents.
-/
import proofs.«218014_g22170621182349_cont_8to1_1384_14_alg».proof.Proof.KBViews
import proofs.«218014_g22170621182349_cont_8to1_1384_14_alg».proof.Proof.LibGatherRows
import proofs.«218014_g22170621182349_cont_8to1_1384_14_alg».proof.Proof.Spec
import Idealize.ShloMosaic.Lib.Writes
import Idealize.ShloMosaic.Lib.ValueIdx

noncomputable section

namespace Cert.Proof.KB

open Cert.Kernel Cert.Kernel.Gen

open Idealize.ShloMosaic
open Idealize.ShloMosaic.SparseCore (S V T)
open Idealize.ShloMosaic.ValueIdx

variable {F : FTy → Type} (m : (ℓ : Loc nD τ sig) → Buf (Elt F) ℓ) (d : Dev nD) (L : grid0.Coords)

/-- The task's block of tokens starts at token `64 s`. -/
theorem tRowK_emb_val (x : S64.Idx) (a : Fin 1) : (((tRowK L).view.emb x : S1024.Idx) a).val = 64 * (L 1).val + (x 0).val := by
  have h0 := L0_val L
  have e : (((tRowK L).view.emb x : S1024.Idx) a).val = k0_off1 L a + 1 * (x a).val := rfl
  rw [e, k0_off1_eq]
  match a with
  | ⟨0, _⟩ =>
    show 64 * (L 1).val + 64 * (L 0).val + 1 * (x 0).val = _
    omega

/-- The task's block of result rows starts at row `64 s`, -/
theorem oRowK_emb_val0 (y : S64x128.Idx) : (((oRowK L).view.emb y : S1024x128.Idx) 0).val = 64 * (L 1).val + (y 0).val := by
  have h0 := L0_val L
  have e : (((oRowK L).view.emb y : S1024x128.Idx) 0).val = k0_off2 L 0 + 1 * (y 0).val := rfl
  rw [e, k0_off2_eq]
  show 64 * (L 1).val + 64 * (L 0).val + 1 * (y 0).val = _
  omega
/-- and spans all the columns. -/
theorem oRowK_emb_val1 (y : S64x128.Idx) : (((oRowK L).view.emb y : S1024x128.Idx) 1).val = (y 1).val := by
  have e : (((oRowK L).view.emb y : S1024x128.Idx) 1).val = k0_off2 L 1 + 1 * (y 1).val := rfl
  rw [e, k0_off2_eq]
  show 0 + 1 * (y 1).val = _
  omega
/-- The task addresses the whole table. -/
theorem wAllK_emb (j : S1000x128.Idx) : ((wAllK).view.emb j : S1000x128.Idx) = j := by
  funext a
  apply Fin.ext
  have e : (((wAllK).view.emb j : S1000x128.Idx) a).val = (![0, 0] : Fin 2 → Nat) a + 1 * (j a).val := rfl
  rw [e]
  match a with
  | ⟨0, _⟩ => show 0 + 1 * (j 0).val = (j 0).val; omega
  | ⟨1, _⟩ => show 0 + 1 * (j 1).val = (j 1).val; omega

/-- The value of the table the task's view reads at an index is the table's own. -/
theorem read_wAllK (j : S1000x128.Idx) : (wAllK).view.read (Elt F) (m (wLoc d)) j = m (wLoc d) j := by
  rw [show (wAllK).view.read (Elt F) (m (wLoc d)) j = m (wLoc d) ((wAllK).view.emb j) from (View.read_apply _ _).trans (cast_eq _ _), wAllK_emb]

/-- The task's block of tokens read at position `p` is token `64 s + p`. -/
theorem read_tRowK (p : Fin 64) (h : 64 * (L 1).val + p.val < 1024) :
    (tRowK L).view.read (Elt F) (m (tLoc d)) (ix1 p) = m (tLoc d) (ix1 (⟨64 * (L 1).val + p.val, h⟩ : Fin 1024)) := by
  rw [show (tRowK L).view.read (Elt F) (m (tLoc d)) (ix1 p) = m (tLoc d) ((tRowK L).view.emb (ix1 p)) from (View.read_apply _ _).trans (cast_eq _ _)]
  congr 1
  funext a
  apply Fin.ext
  rw [tRowK_emb_val]
  match a with
  | ⟨0, _⟩ => rfl

/-- What the task leaves under its block of the result is the lookup. The token copy lands the task's 64 tokens in the
    index scratch (`pay0`), the gather reads the table at the rows they name into the row scratch (`g0`), and the
    write-out carries the row scratch (`pay1`) to rows `[64 s, 64 s + 64)` of the result: element `(64 s + a, b)` then
    holds the table at row `token (64 s + a)`, column `b`, the tokens being in range. -/
theorem out_value (hpre : PreOK m) (fs : Buf (Elt F) ((V d (cV L) (jV L)).loc cc0_scratch0)) (fr : Buf (Elt F) ((V d (cV L) (jV L)).loc cc0_scratch1))
    (pay0 : S64.Idx → Elt F .i32) (hpay0 : pay0 = ReadAs.same.apply ((tRowK L).view.read (Elt F) (m (tLoc d))))
    (hin : ∀ x : cc0_scratch0.ty.shape.Idx, ((Memref.whole cc0_scratch0).view.read (Elt F) (View.write (Elt F) (Memref.whole cc0_scratch0).view fs pay0 Finset.univ) x).toNat < 1000)
    (g0 : S64x128.Idx → Elt F .f32)
    (hg0 : g0 = SparseCore.gatherPayload gathers_S1000x128_S64x128 ((wAllK).view.read (Elt F) (m (wLoc d)))
        (SparseCore.rows ((Memref.whole cc0_scratch0).view.read (Elt F) (View.write (Elt F) (Memref.whole cc0_scratch0).view fs pay0 Finset.univ)) rfl hin))
    (pay1 : S64x128.Idx → Elt F .f32)
    (hpay1 : pay1 = ReadAs.same.apply ((Memref.whole cc0_scratch1).view.read (Elt F) ((Memref.whole cc0_scratch1).view.writes (Elt F) fr [⟨Rect.whole cc0_scratch1.ty.shape, g0⟩]))) :
    ∀ i ∈ (oRowK L).view.set, (oRowK L).view.writes (Elt F) (m (oLoc d)) [⟨Rect.whole S64x128, pay1⟩] i = GG m d i := by
  intro i hi
  obtain ⟨y, -, rfl⟩ := Finset.mem_map.mp hi
  -- the one whole write, read under the block
  have h1 : (oRowK L).view.writes (Elt F) (m (oLoc d)) [⟨Rect.whole S64x128, pay1⟩] ((oRowK L).view.emb y) = pay1 y := by
    have h := View.read_writes_cons_emb (oRowK L).view (m (oLoc d)) (Rect.whole S64x128) pay1 [] y
    rw [Rect.emb_whole_apply] at h
    rw [← h]
    exact ((View.read_apply _ _).trans (cast_eq _ _)).symm
  rw [h1, hpay1]
  -- the row scratch after its one whole write, read whole
  have h2 : (Memref.whole cc0_scratch1 : Memref sig .scVector .vmem S64x128 .f32).view.read (Elt F)
      ((Memref.whole cc0_scratch1 : Memref sig .scVector .vmem S64x128 .f32).view.writes (Elt F) fr [⟨Rect.whole cc0_scratch1.ty.shape, g0⟩]) y = g0 y := by
    have h := View.read_writes_cons_emb (Memref.whole cc0_scratch1 : Memref sig .scVector .vmem S64x128 .f32).view fr (Rect.whole _) g0 [] y
    rw [Rect.emb_whole_apply] at h
    exact h
  show (Memref.whole cc0_scratch1 : Memref sig .scVector .vmem S64x128 .f32).view.read (Elt F)
      ((Memref.whole cc0_scratch1 : Memref sig .scVector .vmem S64x128 .f32).view.writes (Elt F) fr [⟨Rect.whole cc0_scratch1.ty.shape, g0⟩]) y = _
  rw [h2, hg0]
  -- the gather at `y`: the table at the row the list names for `y 0`, column `y 1`
  refine (Cert.Lib.GatherRows.gatherPayload_rows_apply (N := 1000) (C := 128) (R := 64) (n := 64) gathers_S1000x128_S64x128 _ _ rfl hin y).trans ?_
  rw [read_wAllK]
  show m (wLoc d) _ = m (wLoc d) (ix2 (Cert.Spec.row (m (tLoc d) (ix1 (⟨(((oRowK L).view.emb y : S1024x128.Idx) 0).val, idx2_lt0 _⟩ : Fin 1024))))
    (⟨(((oRowK L).view.emb y : S1024x128.Idx) 1).val, idx2_lt1 _⟩ : Fin 128))
  congr 1
  funext a
  apply Fin.ext
  match a with
  | ⟨0, _⟩ =>
    -- the row: the list entry is token `64 s + y 0`, which is in range, so the clamp is the identity
    have h16 : (L 1).val < 16 := (L 1).isLt
    have h64 : (y 0).val < 64 := idx2_lt0 y
    have hb : 64 * (L 1).val + (y 0).val < 1024 := by omega
    have e1 : View.read (Elt F) (Memref.whole cc0_scratch0 : Memref sig .scVector .vmem S64 .i32).view
        (View.write (Elt F) (Memref.whole cc0_scratch0 : Memref sig .scVector .vmem S64 .i32).view fs pay0 Finset.univ)
          (ix1 (⟨(y 0).val, h64⟩ : Fin 64))
        = m (tLoc d) (ix1 (⟨64 * (L 1).val + (y 0).val, hb⟩ : Fin 1024)) := by
      rw [View.read_write_univ, hpay0]
      exact read_tRowK m d L ⟨(y 0).val, h64⟩ hb
    have e2 : (ix1 (⟨(((oRowK L).view.emb y : S1024x128.Idx) 0).val, idx2_lt0 _⟩ : Fin 1024) : S1024.Idx)
        = ix1 (⟨64 * (L 1).val + (y 0).val, hb⟩ : Fin 1024) := by
      congr 1
      exact Fin.ext (oRowK_emb_val0 L y)
    refine (congrArg BitVec.toNat e1).trans ?_
    rw [e2, Cert.Spec.row_val_of_lt (hpre d _)]
  | ⟨1, _⟩ => exact (oRowK_emb_val1 L y).symm

end Cert.Proof.KB

end
-- ==== Proof.KBBody.lean ====
/-
  One task of the embedding lookup, run: from its block of tokens, its share of the table and its block of result
  rows, the task copies the tokens in, gathers the rows they name and copies them out, each transfer waited for before
  the next is issued; it hands back what it took, the result rows now at the lookup of the launch contents. Then the
  launch: the sixteen tasks side by side on disjoint blocks, the table shared for reading, the blocks joined into the
  whole result; @main is the one call.
-/
import proofs.«218014_g22170621182349_cont_8to1_1384_14_alg».proof.Proof.KBViews
import proofs.«218014_g22170621182349_cont_8to1_1384_14_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg0_scv : Memref Cert.Kernel.sig Kind.scVector Space.hbm Cert.Kernel.S1024 EltTy.i32)
local notation "wV" => (Memref.whole Cert.Kernel.main_arg1_scv : Memref Cert.Kernel.sig Kind.scVector Space.hbm Cert.Kernel.S1000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S64 EltTy.i32)
local notation "rV" => (Memref.whole Cert.Kernel.cc0_scratch1 : Memref Cert.Kernel.sig Kind.scVector Space.vmem Cert.Kernel.S64x128 EltTy.f32)

variable [FloatOps F]

/-! ## The task -/

section Tile

variable (d : Dev nD) (L : grid0.Coords)

set_option maxHeartbeats 4000000 in
/-- The task on vector subcore `(L 0, L 1)` of device `d`: the token copy and its wait, the gather over the copied
    tokens (in range by the precondition) and its wait, the write-out and its wait; what the write-out leaves in the
    task's result rows is the lookup there (`out_value`). -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tRowPts m d (jL L) ∗ wShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L tV (Memref.isWhole_whole _) wV (Memref.isWhole_whole _) oV (Memref.isWhole_whole _)
            sV (Memref.isWhole_whole _) rV (Memref.isWhole_whole _) cc0_scratch2 cc0_scoped0 cc0_scoped1)
          fun _ => iprop((tRowPts m d (jL L) ∗ wShPts m d (jL L) ∗ oRowPts d (jL L) (GG m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, -, ⟨Ht, Hw, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tRowK (F := F) d L _).symm) $$ Ht
  ihave Ho' := (Entails.of_eq (pts_oRowK (F := F) d L _).symm) $$ Ho
  ihave Hw' := (Entails.of_eq (pts_wV (F := F) d L _ _).symm) $$ Hw
  ihave Hs' := (Entails.of_eq (pts_sV (F := F) d L _).symm) $$ Hs
  ihave Hr' := (Entails.of_eq (pts_rV (F := F) d L _).symm) $$ Hr
  -- the token copy and its wait; what it landed in the index scratch is in range, which the gather needs
  sl_exec
  have hin := list_in_range m d L hpre fs (tile_body.sl.dma0 m d L) rfl
  -- the gather and its wait, the write-out and its wait
  sl_exec
  sl_step
  isplitl [Ht' Hw' Ho']
  · isplitl [Ht']; · iapply (Entails.of_eq (pts_tRowK (F := F) d L _)); iexact Ht'
    isplitl [Hw']; · iexact Hw'
    iapply (Entails.of_eq (pts_oRowK (F := F) d L (GG m d)))
    iapply (Entails.of_eq (pointsTo_congr (out_value m d L hpre fs fr _ rfl hin _ rfl _ rfl)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with rfl | rfl | rfl | hp
  · exact .inr rfl
  · exact .inr rfl
  · exact .inr rfl
  · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          tV (Memref.isWhole_whole _) wV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The blocks split and join; the shares of the table -/

omit [FloatOps F] in
theorem tRowSet_eq (i : Fin 16) : tRowSet i = (trow i).set := by
  show ((View.whole (main_arg0_scv : Ref sig .scVector)).slice (trow i)).set = _
  rw [View.set_slice]; exact Finset.map_refl
omit [FloatOps F] in
theorem oRowSet_eq (i : Fin 16) : oRowSet i = (orow i).set := by
  show ((View.whole (main_v0_scv : Ref sig .scVector)).slice (orow i)).set = _
  rw [View.set_slice]; exact Finset.map_refl
omit [FloatOps F] in
theorem trows_disjoint : ∀ i ∈ (Finset.univ : Finset (Fin 16)), ∀ j ∈ (Finset.univ : Finset (Fin 16)), i ≠ j → Disjoint (tRowSet i) (tRowSet j) :=
  fun i _ j _ h => by rw [tRowSet_eq, tRowSet_eq]; exact Rect.part_disjoint tdiv h
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem trows_cover : (Finset.univ : Finset (Fin 16)).biUnion tRowSet = Finset.univ :=
  (Finset.biUnion_congr rfl fun i _ => tRowSet_eq i).trans (Rect.biUnion_part tdiv)
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem tPts_rows (d : Dev nD) (f : Buf (Elt F) (tLoc d)) :
    (tLoc d ↦{fullShare} f : sProp 𝕄) = bigSep Finset.univ fun i : Fin 16 => tLoc d ↦[tRowSet i]{fullShare} f := by
  rw [← pointsTo_biUnion Finset.univ (ℓ := tLoc d) tRowSet trows_disjoint, trows_cover]; try rfl
omit [FloatOps F] in
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl
omit [FloatOps F] in
theorem wPts_shares (d : Dev nD) (f : Buf (Elt F) (wLoc d)) :
    (wLoc d ↦{fullShare} f : sProp 𝕄) = bigSep Finset.univ fun i : Fin 16 => wLoc d ↦{wq i} f :=
  pointsTo_piecesOf Finset.univ f (by decide) fullShare

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The three arrays go out to the sixteen tasks and come back, the result's blocks joined at the one lookup function. -/
theorem vecSplit : (K (F := F)).VecSplit' (P m) 0 := by
  intro d c
  show iprop(tPts m d ∗ wPts m d ∗ oPts d (m (oLoc d))) ⊢ |={Set.univ}=> iprop(
      (bigSep Finset.univ fun i : Fin ((K (F := F)).nSub 0) =>
        iprop(tRowPts m d (Fin.cast nSub_zero i) ∗ wShPts m d (Fin.cast nSub_zero i) ∗ oRowPts d (Fin.cast nSub_zero i) (m (oLoc d))))
      ∗ ((bigSep Finset.univ fun i : Fin ((K (F := F)).nSub 0) =>
          iprop(tRowPts m d (Fin.cast nSub_zero i) ∗ wShPts m d (Fin.cast nSub_zero i) ∗ oRowPts d (Fin.cast nSub_zero i) (GG m d)))
          -∗ iprop(tPts m d ∗ wPts m d ∗ oPts d (GG m d))))
  rw [bigSep_tasks (F := F) (fun i => iprop(tRowPts m d i ∗ wShPts m d i ∗ oRowPts d i (m (oLoc d)))),
    bigSep_tasks (F := F) (fun i => iprop(tRowPts m d i ∗ wShPts m d i ∗ oRowPts d i (GG m d))), bigSep_sep', bigSep_sep', bigSep_sep', bigSep_sep']
  unfold tPts wPts oPts tRowPts wShPts oRowPts
  rw [tPts_rows, wPts_shares, oPts_rows, oPts_rows]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (wLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(tPts m d ∗ wPts m d ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ wPts m d ∗ oPts d (GG m d)) :=
  bigSep_univ_of_subsingleton (0 : Fin 1)

/-- What @main leaves the claim: the tokens and the table at their launch contents, the result at the lookup. -/
abbrev FIN (d : Dev nD) : sProp 𝕄 := iprop(tPts m d ∗ wPts m d ∗ oPts d (GG m d))

/-- @main on device `d`'s TensorCore: the one call, from the three arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Hw, Ho⟩, -, -⟩, -⟩
  iapply ((K (F := F)).wp_run (D (F := F)) 𝒱 (EH := EH) (P := P m) κ d 0) $$ [Hst Ht Hw Ho]
  isplitr; · iexact Hctx
  isplitl [Hst]; · iexact Hst
  isplitl [Ht Hw Ho]
  · rw [st0_eq]
    isplitl [Ht]; · iexact Ht
    isplitl [Hw]; · iexact Hw
    iexact Ho
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (oLoc d) = GG m d ∧ s'.mem.mem (tLoc d) = m (tLoc d) ∧ s'.mem.mem (wLoc d) = m (wLoc d)

set_option maxRecDepth 16384 in
theorem hfin (d : Dev nD) (s' : Phys nD τ sig (Elt F)) : iprop(FIN m d ∗ SI s') ⊢ (⌜fq m d s'⌝ : sProp 𝕄) := by
  iintro ⟨⟨Ht, Hw, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := GG m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run's post: the result at the lookup of the launch contents, the two arguments unchanged. -/
def QC : PUnit × MemSt nD τ sig (Elt F) → Prop := fun r => ∀ c : Dev nD,
  r.2.mem (oLoc c) = GG m c ∧ r.2.mem (tLoc c) = m (tLoc c) ∧ r.2.mem (wLoc c) = m (wLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KIViews.lean ====
/-
  The embedding lookup on the sixteen vector subcores of SparseCore 0, one task each. Task `s` copies tokens
  `[64 s, 64 s + 64)` into its index scratch, gathers the rows of the table those tokens name into its row scratch
  (one indirect stream over the index scratch), and copies the row scratch to rows `[64 s, 64 s + 64)` of the result.
  Each copy is waited for before the next starts, so no buffer is touched while a transfer on it is pending.
  Here: the program as the launch theorem sees it, what the launch's handshakes carry (each task its 64 tokens, a
  sixteenth share of the table and its 64 result rows, brought back with the result rows at the lookup `Spec.G` of the
  launch contents), the task's views of the arrays, and that the list the gather reads is in range.
-/
import proofs.«218014_g22170621182349_cont_8to1_1384_14_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«218014_g22170621182349_cont_8to1_1384_14_alg».proof.Proof.Gen.KernelIdeal
import proofs.«218014_g22170621182349_cont_8to1_1384_14_alg».proof.Proof.Gen.KernelIdeal.Skeleton
import proofs.«218014_g22170621182349_cont_8to1_1384_14_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The tokens, the table and the result, as locations of device `d`. -/
abbrev tLoc (d : Dev nD) : Loc nD τ sig := (SparseCore.T d).loc main_arg0
abbrev wLoc (d : Dev nD) : Loc nD τ sig := (SparseCore.T d).loc main_arg1
abbrev oLoc (d : Dev nD) : Loc nD τ sig := (SparseCore.T d).loc main_v0

local notation "tV" => (Memref.whole Cert.KernelIdeal.main_arg0_scv : Memref Cert.KernelIdeal.sig Kind.scVector Space.hbm Cert.KernelIdeal.S1024 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S64 EltTy.i32)
local notation "rV" => (Memref.whole Cert.KernelIdeal.cc0_scratch1 : Memref Cert.KernelIdeal.sig Kind.scVector Space.vmem Cert.KernelIdeal.S64x128 EltTy.f32)

/-- The sixteen blocks of 64 tokens and of 64 result rows. -/
theorem tdiv : 16 ∣ S1024.size 0 := ⟨64, rfl⟩
theorem odiv : 16 ∣ S1024x128.size 0 := ⟨64, rfl⟩
abbrev trow (i : Fin 16) : Rect S1024 := Rect.part (s := S1024) (a₀ := 0) tdiv i
abbrev orow (i : Fin 16) : Rect S1024x128 := Rect.part (s := S1024x128) (a₀ := 0) odiv i
abbrev tRowSet (i : Fin 16) : Finset S1024.Idx := ((tV).view.slice (trow i)).set
abbrev oRowSet (i : Fin 16) : Finset S1024x128.Idx := ((oV).view.slice (orow i)).set

/-- Task `i`'s share of the table: the full share cut into sixteen pieces. -/
abbrev wq (i : Fin 16) : PosShare TreeShare := pieceOf fullShare 16 (by decide) i

/-- The lookup of the launch contents: what the result holds at the end. -/
abbrev GG (d : Dev nD) : Buf (Elt F) (oLoc d) := Cert.Spec.G (m (tLoc d)) (m (wLoc d))

/-- What the proof asks of the launch memory: every token names a row of the table. -/
def PreOK : Prop := ∀ d : Dev nD, Cert.Spec.InRange (m (tLoc d))

variable [FloatOps F]

/-! ## What the handshakes carry -/

abbrev tPts (d : Dev nD) : sProp 𝕄 := tLoc d ↦{fullShare} m (tLoc d)
abbrev wPts (d : Dev nD) : sProp 𝕄 := wLoc d ↦{fullShare} m (wLoc d)
abbrev oPts (d : Dev nD) (f : Buf (Elt F) (oLoc d)) : sProp 𝕄 := oLoc d ↦{fullShare} f
abbrev tRowPts (d : Dev nD) (i : Fin 16) : sProp 𝕄 := tLoc d ↦[tRowSet i]{fullShare} m (tLoc d)
abbrev wShPts (d : Dev nD) (i : Fin 16) : sProp 𝕄 := wLoc d ↦{wq i} m (wLoc d)
abbrev oRowPts (d : Dev nD) (i : Fin 16) (f : Buf (Elt F) (oLoc d)) : sProp 𝕄 := oLoc d ↦[oRowSet i]{fullShare} f

/-- The one call takes the three arrays whole; each task its block of tokens, its share of the table and its block
    of result rows, and brings them back, the result rows at the lookup. -/
def P : (K (F := F)).Pay (nD := nD) (Val := Elt F) (Name := ℕ) (U := UU) where
  st := fun q d _ => match q with | 0 => iprop(tPts m d ∗ wPts m d ∗ oPts d (m (oLoc d)))
  dn := fun q d _ => match q with | 0 => iprop(tPts m d ∗ wPts m d ∗ oPts d (GG m d))
  go := fun q d _ i => match q with
    | 0 => iprop(tRowPts m d (Fin.cast nSub_zero i) ∗ wShPts m d (Fin.cast nSub_zero i) ∗ oRowPts d (Fin.cast nSub_zero i) (m (oLoc d)))
  td := fun q d _ i => match q with
    | 0 => iprop(tRowPts m d (Fin.cast nSub_zero i) ∗ wShPts m d (Fin.cast nSub_zero i) ∗ oRowPts d (Fin.cast nSub_zero i) (GG m d))
  x := fun _ _ => iprop(emp)

instance P_storable : (P (F := F) m).IsStorable where
  st q d _ := match q with
    | 0 => (inferInstance : BI.Storable (upEmb : UEmb _ 𝕄) iprop(tPts m d ∗ wPts m d ∗ oPts d (m (oLoc d))))
  dn q d _ := match q with
    | 0 => (inferInstance : BI.Storable (upEmb : UEmb _ 𝕄) iprop(tPts m d ∗ wPts m d ∗ oPts d (GG m d)))
  go q d _ i := match q with
    | 0 => (inferInstance : BI.Storable (upEmb : UEmb _ 𝕄)
      iprop(tRowPts m d (Fin.cast nSub_zero i) ∗ wShPts m d (Fin.cast nSub_zero i) ∗ oRowPts d (Fin.cast nSub_zero i) (m (oLoc d))))
  td q d _ i := match q with
    | 0 => (inferInstance : BI.Storable (upEmb : UEmb _ 𝕄)
      iprop(tRowPts m d (Fin.cast nSub_zero i) ∗ wShPts m d (Fin.cast nSub_zero i) ∗ oRowPts d (Fin.cast nSub_zero i) (GG m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 1 := rfl
omit [FloatOps F] in
theorem bound_one : grid0.bound 1 = 16 := rfl
abbrev jL (L : grid0.Coords) : Fin 16 := Fin.cast bound_one (L 1)

omit [FloatOps F] in
/-- The one SparseCore of the grid is number 0. -/
theorem L0_val (L : grid0.Coords) : (L 0).val = 0 := by
  have h := (L 0).isLt
  have hb : grid0.bound 0 = 1 := rfl
  omega

/-- The task's block of tokens and of result rows, and the whole table, as the task addresses them. -/
abbrev trowK (L : grid0.Coords) : Rect S1024 := Rect.unit (s := S1024) (k0_off1 L) S64.size (k0_off1_inb L)
abbrev orowK (L : grid0.Coords) : Rect S1024x128 := Rect.unit (s := S1024x128) (k0_off2 L) S64x128.size (k0_off2_inb L)
abbrev tRowK (L : grid0.Coords) : Memref sig .scVector .hbm S64 .i32 := (tV).slice (trowK L) (fun _ => rfl)
abbrev oRowK (L : grid0.Coords) : Memref sig .scVector .hbm S64x128 .f32 := (oV).slice (orowK L) (fun _ => rfl)
abbrev wAllK : Memref sig .scVector .hbm S1000x128 .f32 := (wV).slice (Rect.unit (s := S1000x128) ![0, 0] S1000x128.size inb_S1000x128_S1000x128_0_0) (fun _ => rfl)

omit [FloatOps F] in
theorem trowK_eq : trowK L = trow (jL L) := by
  have h0 := L0_val L
  unfold trowK trow Rect.part Rect.block
  congr 1 <;> funext a
  · rw [k0_off1_eq]
    match a with
    | 0 => simp [Shape.partIx, Shape.partSize, h0]; omega
  · match a with
    | 0 => simp [Shape.partSize]
omit [FloatOps F] in
theorem orowK_eq : orowK L = orow (jL L) := by
  have h0 := L0_val L
  unfold orowK orow Rect.part Rect.block
  congr 1 <;> funext a
  · rw [k0_off2_eq]
    match a with
    | 0 => simp [Shape.partIx, Shape.partSize, h0]; omega
    | 1 => simp [Shape.partIx, Shape.partSize]
  · match a with
    | 0 => simp [Shape.partSize]
    | 1 => simp [Shape.partSize]

omit [FloatOps F] in
theorem set_tRowK : (tRowK L).view.set = tRowSet (jL L) := by
  show ((tV).view.slice (trowK L)).set = ((tV).view.slice (trow (jL L))).set
  exact trowK_eq L ▸ rfl
omit [FloatOps F] in
theorem set_oRowK : (oRowK L).view.set = oRowSet (jL L) := by
  show ((oV).view.slice (orowK L)).set = ((oV).view.slice (orow (jL L))).set
  exact orowK_eq L ▸ rfl

omit [FloatOps F] in
theorem pts_tRowK (f : Buf (Elt F) (tLoc d)) :
    ((tRowK L).view.loc (V d (cV L) (jV L)) ↦[(tRowK L).view.set]{fullShare} f : sProp 𝕄) = tLoc d ↦[tRowSet (jL L)]{fullShare} f := by
  rw [set_tRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_wV (q : PosShare TreeShare) (f : Buf (Elt F) (wLoc d)) :
    ((wV).view.loc (V d (cV L) (jV L)) ↦{q} f : sProp 𝕄) = wLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three DMA semaphores of a task: the token copy's, the gather's, the write-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The list the gather reads is in range: what the token copy landed in the index scratch is the task's block of
    tokens, each below 1000. -/
theorem list_in_range (hpre : PreOK m) (fs : Buf (Elt F) ((V d (cV L) (jV L)).loc cc0_scratch0)) (pay : S64.Idx → Elt F .i32)
    (hpay : pay = (tRowK L).view.read (Elt F) (m (tLoc d))) :
    ∀ x, ((sV).view.read (Elt F) (View.write (Elt F) (sV).view fs pay Finset.univ) x).toNat < 1000 := by
  subst hpay; intro x
  rw [View.write_whole_univ]
  simp only [Memref.view_whole, View.read_whole]
  rw [show ∀ j, (tRowK L).view.read (Elt F) (m (tLoc d)) j = m (tLoc d) ((tRowK L).view.emb j) from fun j => (View.read_apply _ _).trans (cast_eq _ _)]
  exact hpre d _

end Tile

end Cert.Proof.KI

end
-- ==== Proof.KIValue.lean ====
/-
  What one task leaves in its block of the result: row `64 s + a` of the result, column `b`, is the table at the
  row token `64 s + a` names, column `b` — the lookup `Spec.G` of the launch contents.
-/
import proofs.«218014_g22170621182349_cont_8to1_1384_14_alg».proof.Proof.KIViews
import proofs.«218014_g22170621182349_cont_8to1_1384_14_alg».proof.Proof.LibGatherRows
import proofs.«218014_g22170621182349_cont_8to1_1384_14_alg».proof.Proof.Spec
import Idealize.ShloMosaic.Lib.Writes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.ValueIdx

variable {F : FTy → Type} (m : (ℓ : Loc nD τ sig) → Buf (Elt F) ℓ) (d : Dev nD) (L : grid0.Coords)

/-- The task's block of tokens starts at token `64 s`. -/
theorem tRowK_emb_val (x : S64.Idx) (a : Fin 1) : (((tRowK L).view.emb x : S1024.Idx) a).val = 64 * (L 1).val + (x 0).val := by
  have h0 := L0_val L
  have e : (((tRowK L).view.emb x : S1024.Idx) a).val = k0_off1 L a + 1 * (x a).val := rfl
  rw [e, k0_off1_eq]
  match a with
  | ⟨0, _⟩ =>
    show 64 * (L 1).val + 64 * (L 0).val + 1 * (x 0).val = _
    omega

/-- The task's block of result rows starts at row `64 s`, -/
theorem oRowK_emb_val0 (y : S64x128.Idx) : (((oRowK L).view.emb y : S1024x128.Idx) 0).val = 64 * (L 1).val + (y 0).val := by
  have h0 := L0_val L
  have e : (((oRowK L).view.emb y : S1024x128.Idx) 0).val = k0_off2 L 0 + 1 * (y 0).val := rfl
  rw [e, k0_off2_eq]
  show 64 * (L 1).val + 64 * (L 0).val + 1 * (y 0).val = _
  omega
/-- and spans all the columns. -/
theorem oRowK_emb_val1 (y : S64x128.Idx) : (((oRowK L).view.emb y : S1024x128.Idx) 1).val = (y 1).val := by
  have e : (((oRowK L).view.emb y : S1024x128.Idx) 1).val = k0_off2 L 1 + 1 * (y 1).val := rfl
  rw [e, k0_off2_eq]
  show 0 + 1 * (y 1).val = _
  omega
/-- The task addresses the whole table. -/
theorem wAllK_emb (j : S1000x128.Idx) : ((wAllK).view.emb j : S1000x128.Idx) = j := by
  funext a
  apply Fin.ext
  have e : (((wAllK).view.emb j : S1000x128.Idx) a).val = (![0, 0] : Fin 2 → Nat) a + 1 * (j a).val := rfl
  rw [e]
  match a with
  | ⟨0, _⟩ => show 0 + 1 * (j 0).val = (j 0).val; omega
  | ⟨1, _⟩ => show 0 + 1 * (j 1).val = (j 1).val; omega

/-- The value of the table the task's view reads at an index is the table's own. -/
theorem read_wAllK (j : S1000x128.Idx) : (wAllK).view.read (Elt F) (m (wLoc d)) j = m (wLoc d) j := by
  rw [show (wAllK).view.read (Elt F) (m (wLoc d)) j = m (wLoc d) ((wAllK).view.emb j) from (View.read_apply _ _).trans (cast_eq _ _), wAllK_emb]

/-- The task's block of tokens read at position `p` is token `64 s + p`. -/
theorem read_tRowK (p : Fin 64) (h : 64 * (L 1).val + p.val < 1024) :
    (tRowK L).view.read (Elt F) (m (tLoc d)) (ix1 p) = m (tLoc d) (ix1 (⟨64 * (L 1).val + p.val, h⟩ : Fin 1024)) := by
  rw [show (tRowK L).view.read (Elt F) (m (tLoc d)) (ix1 p) = m (tLoc d) ((tRowK L).view.emb (ix1 p)) from (View.read_apply _ _).trans (cast_eq _ _)]
  congr 1
  funext a
  apply Fin.ext
  rw [tRowK_emb_val]
  match a with
  | ⟨0, _⟩ => rfl

/-- What the task leaves under its block of the result is the lookup. The token copy lands the task's 64 tokens in the
    index scratch (`pay0`), the gather reads the table at the rows they name into the row scratch (`g0`), and the
    write-out carries the row scratch (`pay1`) to rows `[64 s, 64 s + 64)` of the result: element `(64 s + a, b)` then
    holds the table at row `token (64 s + a)`, column `b`, the tokens being in range. -/
theorem out_value (hpre : PreOK m) (fs : Buf (Elt F) ((V d (cV L) (jV L)).loc cc0_scratch0)) (fr : Buf (Elt F) ((V d (cV L) (jV L)).loc cc0_scratch1))
    (pay0 : S64.Idx → Elt F .i32) (hpay0 : pay0 = ReadAs.same.apply ((tRowK L).view.read (Elt F) (m (tLoc d))))
    (hin : ∀ x : cc0_scratch0.ty.shape.Idx, ((Memref.whole cc0_scratch0).view.read (Elt F) (View.write (Elt F) (Memref.whole cc0_scratch0).view fs pay0 Finset.univ) x).toNat < 1000)
    (g0 : S64x128.Idx → Elt F .f32)
    (hg0 : g0 = SparseCore.gatherPayload gathers_S1000x128_S64x128 ((wAllK).view.read (Elt F) (m (wLoc d)))
        (SparseCore.rows ((Memref.whole cc0_scratch0).view.read (Elt F) (View.write (Elt F) (Memref.whole cc0_scratch0).view fs pay0 Finset.univ)) rfl hin))
    (pay1 : S64x128.Idx → Elt F .f32)
    (hpay1 : pay1 = ReadAs.same.apply ((Memref.whole cc0_scratch1).view.read (Elt F) ((Memref.whole cc0_scratch1).view.writes (Elt F) fr [⟨Rect.whole cc0_scratch1.ty.shape, g0⟩]))) :
    ∀ i ∈ (oRowK L).view.set, (oRowK L).view.writes (Elt F) (m (oLoc d)) [⟨Rect.whole S64x128, pay1⟩] i = GG m d i := by
  intro i hi
  obtain ⟨y, -, rfl⟩ := Finset.mem_map.mp hi
  -- the one whole write, read under the block
  have h1 : (oRowK L).view.writes (Elt F) (m (oLoc d)) [⟨Rect.whole S64x128, pay1⟩] ((oRowK L).view.emb y) = pay1 y := by
    have h := View.read_writes_cons_emb (oRowK L).view (m (oLoc d)) (Rect.whole S64x128) pay1 [] y
    rw [Rect.emb_whole_apply] at h
    rw [← h]
    exact ((View.read_apply _ _).trans (cast_eq _ _)).symm
  rw [h1, hpay1]
  -- the row scratch after its one whole write, read whole
  have h2 : (Memref.whole cc0_scratch1 : Memref sig .scVector .vmem S64x128 .f32).view.read (Elt F)
      ((Memref.whole cc0_scratch1 : Memref sig .scVector .vmem S64x128 .f32).view.writes (Elt F) fr [⟨Rect.whole cc0_scratch1.ty.shape, g0⟩]) y = g0 y := by
    have h := View.read_writes_cons_emb (Memref.whole cc0_scratch1 : Memref sig .scVector .vmem S64x128 .f32).view fr (Rect.whole _) g0 [] y
    rw [Rect.emb_whole_apply] at h
    exact h
  show (Memref.whole cc0_scratch1 : Memref sig .scVector .vmem S64x128 .f32).view.read (Elt F)
      ((Memref.whole cc0_scratch1 : Memref sig .scVector .vmem S64x128 .f32).view.writes (Elt F) fr [⟨Rect.whole cc0_scratch1.ty.shape, g0⟩]) y = _
  rw [h2, hg0]
  -- the gather at `y`: the table at the row the list names for `y 0`, column `y 1`
  refine (Cert.Lib.GatherRows.gatherPayload_rows_apply (N := 1000) (C := 128) (R := 64) (n := 64) gathers_S1000x128_S64x128 _ _ rfl hin y).trans ?_
  rw [read_wAllK]
  show m (wLoc d) _ = m (wLoc d) (ix2 (Cert.Spec.row (m (tLoc d) (ix1 (⟨(((oRowK L).view.emb y : S1024x128.Idx) 0).val, idx2_lt0 _⟩ : Fin 1024))))
    (⟨(((oRowK L).view.emb y : S1024x128.Idx) 1).val, idx2_lt1 _⟩ : Fin 128))
  congr 1
  funext a
  apply Fin.ext
  match a with
  | ⟨0, _⟩ =>
    -- the row: the list entry is token `64 s + y 0`, which is in range, so the clamp is the identity
    have h16 : (L 1).val < 16 := (L 1).isLt
    have h64 : (y 0).val < 64 := idx2_lt0 y
    have hb : 64 * (L 1).val + (y 0).val < 1024 := by omega
    have e1 : View.read (Elt F) (Memref.whole cc0_scratch0 : Memref sig .scVector .vmem S64 .i32).view
        (View.write (Elt F) (Memref.whole cc0_scratch0 : Memref sig .scVector .vmem S64 .i32).view fs pay0 Finset.univ)
          (ix1 (⟨(y 0).val, h64⟩ : Fin 64))
        = m (tLoc d) (ix1 (⟨64 * (L 1).val + (y 0).val, hb⟩ : Fin 1024)) := by
      rw [View.read_write_univ, hpay0]
      exact read_tRowK m d L ⟨(y 0).val, h64⟩ hb
    have e2 : (ix1 (⟨(((oRowK L).view.emb y : S1024x128.Idx) 0).val, idx2_lt0 _⟩ : Fin 1024) : S1024.Idx)
        = ix1 (⟨64 * (L 1).val + (y 0).val, hb⟩ : Fin 1024) := by
      congr 1
      exact Fin.ext (oRowK_emb_val0 L y)
    refine (congrArg BitVec.toNat e1).trans ?_
    rw [e2, Cert.Spec.row_val_of_lt (hpre d _)]
  | ⟨1, _⟩ => exact (oRowK_emb_val1 L y).symm

end Cert.Proof.KI

end
-- ==== Proof.KIBody.lean ====
/-
  One task of the embedding lookup, run: from its block of tokens, its share of the table and its block of result
  rows, the task copies the tokens in, gathers the rows they name and copies them out, each transfer waited for before
  the next is issued; it hands back what it took, the result rows now at the lookup of the launch contents. Then the
  launch: the sixteen tasks side by side on disjoint blocks, the table shared for reading, the blocks joined into the
  whole result; @main is the one call.
-/
import proofs.«218014_g22170621182349_cont_8to1_1384_14_alg».proof.Proof.KIViews
import proofs.«218014_g22170621182349_cont_8to1_1384_14_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg0_scv : Memref Cert.KernelIdeal.sig Kind.scVector Space.hbm Cert.KernelIdeal.S1024 EltTy.i32)
local notation "wV" => (Memref.whole Cert.KernelIdeal.main_arg1_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S64 EltTy.i32)
local notation "rV" => (Memref.whole Cert.KernelIdeal.cc0_scratch1 : Memref Cert.KernelIdeal.sig Kind.scVector Space.vmem Cert.KernelIdeal.S64x128 EltTy.f32)

variable [FloatOps F]

/-! ## The task -/

section Tile

variable (d : Dev nD) (L : grid0.Coords)

set_option maxHeartbeats 4000000 in
/-- The task on vector subcore `(L 0, L 1)` of device `d`: the token copy and its wait, the gather over the copied
    tokens (in range by the precondition) and its wait, the write-out and its wait; what the write-out leaves in the
    task's result rows is the lookup there (`out_value`). -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tRowPts m d (jL L) ∗ wShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L tV (Memref.isWhole_whole _) wV (Memref.isWhole_whole _) oV (Memref.isWhole_whole _)
            sV (Memref.isWhole_whole _) rV (Memref.isWhole_whole _) cc0_scratch2 cc0_scoped0 cc0_scoped1)
          fun _ => iprop((tRowPts m d (jL L) ∗ wShPts m d (jL L) ∗ oRowPts d (jL L) (GG m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, -, ⟨Ht, Hw, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tRowK (F := F) d L _).symm) $$ Ht
  ihave Ho' := (Entails.of_eq (pts_oRowK (F := F) d L _).symm) $$ Ho
  ihave Hw' := (Entails.of_eq (pts_wV (F := F) d L _ _).symm) $$ Hw
  ihave Hs' := (Entails.of_eq (pts_sV (F := F) d L _).symm) $$ Hs
  ihave Hr' := (Entails.of_eq (pts_rV (F := F) d L _).symm) $$ Hr
  -- the token copy and its wait; what it landed in the index scratch is in range, which the gather needs
  sl_exec
  have hin := list_in_range m d L hpre fs (tile_body.sl.dma0 m d L) rfl
  -- the gather and its wait, the write-out and its wait
  sl_exec
  sl_step
  isplitl [Ht' Hw' Ho']
  · isplitl [Ht']; · iapply (Entails.of_eq (pts_tRowK (F := F) d L _)); iexact Ht'
    isplitl [Hw']; · iexact Hw'
    iapply (Entails.of_eq (pts_oRowK (F := F) d L (GG m d)))
    iapply (Entails.of_eq (pointsTo_congr (out_value m d L hpre fs fr _ rfl hin _ rfl _ rfl)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with rfl | rfl | rfl | hp
  · exact .inr rfl
  · exact .inr rfl
  · exact .inr rfl
  · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          tV (Memref.isWhole_whole _) wV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The blocks split and join; the shares of the table -/

omit [FloatOps F] in
theorem tRowSet_eq (i : Fin 16) : tRowSet i = (trow i).set := by
  show ((View.whole (main_arg0_scv : Ref sig .scVector)).slice (trow i)).set = _
  rw [View.set_slice]; exact Finset.map_refl
omit [FloatOps F] in
theorem oRowSet_eq (i : Fin 16) : oRowSet i = (orow i).set := by
  show ((View.whole (main_v0_scv : Ref sig .scVector)).slice (orow i)).set = _
  rw [View.set_slice]; exact Finset.map_refl
omit [FloatOps F] in
theorem trows_disjoint : ∀ i ∈ (Finset.univ : Finset (Fin 16)), ∀ j ∈ (Finset.univ : Finset (Fin 16)), i ≠ j → Disjoint (tRowSet i) (tRowSet j) :=
  fun i _ j _ h => by rw [tRowSet_eq, tRowSet_eq]; exact Rect.part_disjoint tdiv h
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem trows_cover : (Finset.univ : Finset (Fin 16)).biUnion tRowSet = Finset.univ :=
  (Finset.biUnion_congr rfl fun i _ => tRowSet_eq i).trans (Rect.biUnion_part tdiv)
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem tPts_rows (d : Dev nD) (f : Buf (Elt F) (tLoc d)) :
    (tLoc d ↦{fullShare} f : sProp 𝕄) = bigSep Finset.univ fun i : Fin 16 => tLoc d ↦[tRowSet i]{fullShare} f := by
  rw [← pointsTo_biUnion Finset.univ (ℓ := tLoc d) tRowSet trows_disjoint, trows_cover]; try rfl
omit [FloatOps F] in
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl
omit [FloatOps F] in
theorem wPts_shares (d : Dev nD) (f : Buf (Elt F) (wLoc d)) :
    (wLoc d ↦{fullShare} f : sProp 𝕄) = bigSep Finset.univ fun i : Fin 16 => wLoc d ↦{wq i} f :=
  pointsTo_piecesOf Finset.univ f (by decide) fullShare

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The three arrays go out to the sixteen tasks and come back, the result's blocks joined at the one lookup function. -/
theorem vecSplit : (K (F := F)).VecSplit' (P m) 0 := by
  intro d c
  show iprop(tPts m d ∗ wPts m d ∗ oPts d (m (oLoc d))) ⊢ |={Set.univ}=> iprop(
      (bigSep Finset.univ fun i : Fin ((K (F := F)).nSub 0) =>
        iprop(tRowPts m d (Fin.cast nSub_zero i) ∗ wShPts m d (Fin.cast nSub_zero i) ∗ oRowPts d (Fin.cast nSub_zero i) (m (oLoc d))))
      ∗ ((bigSep Finset.univ fun i : Fin ((K (F := F)).nSub 0) =>
          iprop(tRowPts m d (Fin.cast nSub_zero i) ∗ wShPts m d (Fin.cast nSub_zero i) ∗ oRowPts d (Fin.cast nSub_zero i) (GG m d)))
          -∗ iprop(tPts m d ∗ wPts m d ∗ oPts d (GG m d))))
  rw [bigSep_tasks (F := F) (fun i => iprop(tRowPts m d i ∗ wShPts m d i ∗ oRowPts d i (m (oLoc d)))),
    bigSep_tasks (F := F) (fun i => iprop(tRowPts m d i ∗ wShPts m d i ∗ oRowPts d i (GG m d))), bigSep_sep', bigSep_sep', bigSep_sep', bigSep_sep']
  unfold tPts wPts oPts tRowPts wShPts oRowPts
  rw [tPts_rows, wPts_shares, oPts_rows, oPts_rows]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (wLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(tPts m d ∗ wPts m d ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ wPts m d ∗ oPts d (GG m d)) :=
  bigSep_univ_of_subsingleton (0 : Fin 1)

/-- What @main leaves the claim: the tokens and the table at their launch contents, the result at the lookup. -/
abbrev FIN (d : Dev nD) : sProp 𝕄 := iprop(tPts m d ∗ wPts m d ∗ oPts d (GG m d))

/-- @main on device `d`'s TensorCore: the one call, from the three arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Hw, Ho⟩, -, -⟩, -⟩
  iapply ((K (F := F)).wp_run (D (F := F)) 𝒱 (EH := EH) (P := P m) κ d 0) $$ [Hst Ht Hw Ho]
  isplitr; · iexact Hctx
  isplitl [Hst]; · iexact Hst
  isplitl [Ht Hw Ho]
  · rw [st0_eq]
    isplitl [Ht]; · iexact Ht
    isplitl [Hw]; · iexact Hw
    iexact Ho
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (oLoc d) = GG m d ∧ s'.mem.mem (tLoc d) = m (tLoc d) ∧ s'.mem.mem (wLoc d) = m (wLoc d)

set_option maxRecDepth 16384 in
theorem hfin (d : Dev nD) (s' : Phys nD τ sig (Elt F)) : iprop(FIN m d ∗ SI s') ⊢ (⌜fq m d s'⌝ : sProp 𝕄) := by
  iintro ⟨⟨Ht, Hw, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := GG m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run's post: the result at the lookup of the launch contents, the two arguments unchanged. -/
def QC : PUnit × MemSt nD τ sig (Elt F) → Prop := fun r => ∀ c : Dev nD,
  r.2.mem (oLoc c) = GG m c ∧ r.2.mem (tLoc c) = m (tLoc c) ∧ r.2.mem (wLoc c) = m (wLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.RefRun.lean ====
/-
  The reference's @main as a straight line of host operations, and its run.

  @main calls the module's function @_take, which calls @_where: with both bodies substituted at their call
  sites the program is twenty-three operations on the tokens `tok` and the table `tab`:
    * the token wrapped once by the table's height when it is negative as a signed word (`wrapped`),
      laid out as a column of start indices (`startCol`);
    * the test that the start index lies in `[0, 999]` as a signed word, reduced by conjunction along the
      column's unit axis (`inBounds`);
    * the gather of the table's rows at the start indices, kept where the test holds and replaced by the
      literal `0x7FC00000` elsewhere (`refTerm`).
  Every weakly fair execution terminates with the result buffer at `refTerm` of the arguments' launch
  contents and the arguments unchanged.
-/
import proofs.«218014_g22170621182349_cont_8to1_1384_14_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The token, with the table's height added when it is negative as a signed word. -/
def wrapped (tok : IVec S1024 32) : IVec S1024 32 :=
  select (cmpi .slt tok (broadcastInDim S1024 ![] bcast_S_S1024 (constantI S_ 32 0#32)))
    (addi tok (broadcastInDim S1024 ![] bcast_S_S1024 (constantI S_ 32 1000#32))) tok

/-- The wrapped tokens as a column: the gather's start indices. -/
def startCol (tok : IVec S1024 32) : IVec S1024x1 32 :=
  broadcastInDim S1024x1 ![0] bcast_S1024_S1024x1_0 (wrapped tok)

/-- Whether the start index of each row lies in `[0, 999]` as a signed word: the two comparisons' conjunction,
    reduced by conjunction from `true` along the column's unit axis. -/
def inBounds (tok : IVec S1024 32) : IVec S1024 1 :=
  Host.reduce IntOp.andi
    (andi (cmpi .sge (startCol tok) (broadcastInDim S1024x1 ![] bcast_S_S1024x1 (constantI S_ 32 0#32)))
      (cmpi .sle (startCol tok)
        (broadcastInDim S1024x1 ![0, 1] bcast_S1x1_S1024x1_0_1
          (broadcastInDim S1x1 ![1] bcast_S1_S1x1_1 (constantI S1 32 999#32)))))
    (constantI S_ 1 1#1) reducesTo_S1024x1_S1024_d1 h_S_

/-- What @main computes from the tokens and the table: the gathered rows where the start index is in bounds, the
    literal `0x7FC00000` elsewhere. -/
def refTerm (tok : IVec S1024 32) (tab : FVec F S1000x128 .f32) : FVec F S1024x128 .f32 :=
  select (broadcastInDim S1024x128 ![0] bcast_S1024_S1024x128_0 (inBounds tok))
    (Host.gather gather_S1000x128_S1024x1_S1024x128_1_0_n_n_0_1_1128 tab (startCol tok))
    (broadcastInDim S1024x128 ![] bcast_S_S1024x128 (constant S_ .f32 0x7FC00000#32))

/-- @main's operations in order, the two calls unfolded: @_take's twenty-two over its call's buffers, with
    @_where's select at its place among them. -/
abbrev ops : List (HloOp τ sig (Elt F)) :=
  [ TRef.nullary main_call0.c (constantI S_ 32 0#32),
    TRef.unary main_call0.c main_call0.v0 (broadcastInDim S1024 ![] bcast_S_S1024),
    TRef.binary (.of main_arg0) main_call0.v0 main_call0.v1 (cmpi .slt),
    TRef.nullary main_call0.c_0 (constantI S_ 32 1000#32),
    TRef.unary main_call0.c_0 main_call0.v2 (broadcastInDim S1024 ![] bcast_S_S1024),
    TRef.binary (.of main_arg0) main_call0.v2 main_call0.v3 addi,
    TRef.ternary main_call0.v1 main_call0.v3 (.of main_arg0) main_call0.call0.v0 select,
    TRef.unary main_call0.call0.v0 main_call0.v5 (broadcastInDim S1024x1 ![0] bcast_S1024_S1024x1_0),
    TRef.nullary main_call0.c_1 (constantI S1 32 999#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg1) main_call0.v5 main_call0.v13 (fun x i => Host.gather gather_S1000x128_S1024x1_S1024x128_1_0_n_n_0_1_1128 x i),
    TRef.unary main_call0.v12 main_call0.v14 (broadcastInDim S1024x128 ![0] bcast_S1024_S1024x128_0),
    TRef.nullary main_call0.cst (constant S_ .f32 0x7FC00000#32),
    TRef.unary main_call0.cst main_call0.v15 (broadcastInDim S1024x128 ![] bcast_S_S1024x128),
    TRef.ternary main_call0.v14 main_call0.v13 main_call0.v15 main_call0.v16 select ]

set_option maxRecDepth 1024 in
/-- @main is that straight line: the two functions' definitions unfolded at their calls, both sides are one chain
    of operations once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
/-- The fold of the operations at the result buffer is `refTerm` of the valuation at the two arguments: each
    operation's result is its function's value at the buffer it writes and what was there at any other, and the
    typed references' casts are the identity at literal references. The reduction and the gather stay folded
    meanwhile: the equation never looks inside them. -/
theorem out_eq (V : Valuation τ sig (Elt F)) :
    after ops V (main_v0 : DevRef τ sig)
      = refTerm (F := F) (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- On every device, from any memory with zero counters: every weakly fair execution of @main terminates with
    the result at `refTerm` of the arguments' launch contents, and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v0)
            = refTerm (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c main_v0).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.RefRun

end
-- ==== Proof.RefValue.lean ====
/-
  The reference's term is the embedding lookup, on tokens that name rows of the table.

  With `0 ≤ tok n < 1000` as an unsigned word the word is the same number read signed, so: the test
  `tok n < 0` fails and the wrap keeps the token; both range tests `0 ≤ ·` and `· ≤ 999` hold, their
  conjunction is `1` at every index of the column, and so is its reduction by conjunction from `1`; the
  final select therefore keeps the gathered value; and the gather, whose start index is the token read signed
  and clamped into `[0, 999]`, reads the table at row `tok n` and the result's own column.
-/
import proofs.«218014_g22170621182349_cont_8to1_1384_14_alg».proof.Proof.RefRun
import proofs.«218014_g22170621182349_cont_8to1_1384_14_alg».proof.Proof.Spec
import Idealize.ShloMosaic.Lib.ReduceAll
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.ValueIdx

/-! ## Words below 1000 -/

section Words
variable {w : BitVec 32}

/-- A word below 1000 is the same number read signed. -/
theorem toInt_of_lt (h : w.toNat < 1000) : w.toInt = (w.toNat : Int) :=
  BitVec.toInt_eq_toNat_of_lt (by omega)

/-- It is not negative: the signed test against zero fails. -/
theorem slt_zero_of_lt (h : w.toNat < 1000) : IntOp.cmpi .slt w 0#32 = 0#1 := by
  refine eq_zero_of_ne_one fun e => ?_
  have := IntOp.cmpi_slt.1 e
  rw [toInt_of_lt h, show (0#32 : BitVec 32).toInt = 0 from by decide] at this
  omega

/-- It is at least zero, read signed. -/
theorem sge_zero_of_lt (h : w.toNat < 1000) : IntOp.cmpi .sge w 0#32 = 1#1 := by
  refine IntOp.cmpi_sge.2 ?_
  rw [toInt_of_lt h, show (0#32 : BitVec 32).toInt = 0 from by decide]
  omega

/-- It is at most 999, read signed. -/
theorem sle_999_of_lt (h : w.toNat < 1000) : IntOp.cmpi .sle w 999#32 = 1#1 := by
  refine IntOp.cmpi_sle.2 ?_
  rw [toInt_of_lt h, show (999#32 : BitVec 32).toInt = 999 from by decide]
  omega

/-- Read signed and clamped to the table's last row it is itself, which is the row it names. -/
theorem clamp_of_lt (h : w.toNat < 1000) : min w.toInt.toNat 999 = (Cert.Spec.row w).val := by
  rw [toInt_of_lt h, Int.toNat_natCast]
  rfl

end Words

/-! ## The operations at an index -/

/-- The wrap at an index: the token, or the token plus 1000 when it is negative read signed. -/
theorem wrapped_apply (tok : IVec S1024 32) (i : S1024.Idx) :
    wrapped tok i = Scalar.select (IntOp.cmpi .slt (tok i) 0#32) (IntOp.addi (tok i) 1000#32) (tok i) := rfl

/-- A token below 1000 is not wrapped. -/
theorem wrapped_of_lt (tok : IVec S1024 32) (i : S1024.Idx) (h : (tok i).toNat < 1000) : wrapped tok i = tok i := by
  rw [wrapped_apply, slt_zero_of_lt h, select_zero]

/-- The column of start indices at `(n, 0)` is the wrapped token `n`. -/
theorem startCol_apply (tok : IVec S1024 32) (j : S1024x1.Idx) :
    startCol tok j = wrapped tok (ix1 (⟨(j 0).val, idx2_lt0 j⟩ : Fin 1024)) := by
  unfold startCol broadcastInDim
  refine congrArg (wrapped tok) ?_
  funext a
  match a with
  | ⟨0, _⟩ => rfl

/-- A left fold by conjunction from `1` over words that are all `1` is `1`. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- On tokens below 1000 every start index passes both range tests, so their reduced conjunction is `1`
    at every row. -/
theorem inBounds_eq_one (tok : IVec S1024 32) (h : Cert.Spec.InRange tok) (i : S1024.Idx) : inBounds tok i = 1#1 := by
  unfold inBounds
  rw [Host.reduce_eq_foldl]
  refine foldl_andi_ones _ (fun j => ?_) _
  show IntOp.andi (IntOp.cmpi .sge (startCol tok j) 0#32) (IntOp.cmpi .sle (startCol tok j) 999#32) = 1#1
  have hj := h (ix1 (⟨(j 0).val, idx2_lt0 j⟩ : Fin 1024))
  rw [startCol_apply, wrapped_of_lt tok _ hj, sge_zero_of_lt hj, sle_999_of_lt hj]
  decide

/-- The gather at `(n, k)`: the table at the start index of row `n`, read signed and clamped into `[0, 999]`,
    and column `k`. On the table's row axis the start index map names the one component of the start index
    and the axis is collapsed; on its column axis there is no start and the offset is the result's column. -/
theorem gather_apply {α : Type} (tab : S1000x128.Idx → α) (idx : IVec S1024x1 32) (n : Fin 1024) (k : Fin 128) :
    Host.gather gather_S1000x128_S1024x1_S1024x128_1_0_n_n_0_1_1128 tab idx (ix2 n k)
      = tab (ix2 (⟨min (idx (ix2 n (0 : Fin 1))).toInt.toNat 999, by omega⟩ : Fin 1000) k) := by
  unfold Host.gather
  refine congrArg tab ?_
  funext a
  refine Fin.ext ?_
  match a with
  | ⟨0, _⟩ =>
    show gather_S1000x128_S1024x1_S1024x128_1_0_n_n_0_1_1128.start (ix2 n k) idx 0
        + gather_S1000x128_S1024x1_S1024x128_1_0_n_n_0_1_1128.batchCoord (ix2 n k) 0
        + gather_S1000x128_S1024x1_S1024x128_1_0_n_n_0_1_1128.offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x128_S1024x1_S1024x128_1_0_n_n_0_1_1128.startIndexMap from List.mem_singleton.mpr rfl)]
    have hsi : gather_S1000x128_S1024x1_S1024x128_1_0_n_n_0_1_1128.siIdx (ix2 n k)
        ⟨List.idxOf (0 : Fin 2) gather_S1000x128_S1024x1_S1024x128_1_0_n_n_0_1_1128.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S1000x128_S1024x1_S1024x128_1_0_n_n_0_1_1128.start (ix2 n k) idx 1
        + gather_S1000x128_S1024x1_S1024x128_1_0_n_n_0_1_1128.batchCoord (ix2 n k) 1
        + gather_S1000x128_S1024x1_S1024x128_1_0_n_n_0_1_1128.offCoord (ix2 n k) 1 = k.val
    rw [GatherDims.batchCoord_eq_zero _ _ _ List.not_mem_nil]
    unfold GatherDims.start
    rw [dif_neg (show ¬ (1 : Fin 2) ∈ gather_S1000x128_S1024x1_S1024x128_1_0_n_n_0_1_1128.startIndexMap from by decide)]
    unfold GatherDims.offCoord
    rw [dif_pos (show (1 : Fin 2) ∈ gather_S1000x128_S1024x1_S1024x128_1_0_n_n_0_1_1128.sKept from by decide)]
    simp only [Nat.zero_add, Nat.add_zero]
    rfl

/-! ## The reference is the lookup -/

/-- On tokens that name rows of the table the reference's term is the embedding lookup. -/
theorem refTerm_eq (tok : IVec S1024 32) (tab : FVec Ideal S1000x128 .f32) (h : Cert.Spec.InRange tok) :
    Cert.ReferenceIdeal.RefRun.refTerm tok tab = Cert.Spec.G tok tab := by
  funext j
  obtain ⟨n, k, rfl⟩ : ∃ (n : Fin 1024) (k : Fin 128), j = ix2 n k := ⟨j 0, j 1, eq_ix2 j⟩
  rw [Cert.Spec.G_apply]
  unfold refTerm
  rw [select_apply,
    show broadcastInDim S1024x128 ![0] bcast_S1024_S1024x128_0 (inBounds tok) (ix2 n k) = 1#1 from inBounds_eq_one tok h _,
    select_one, gather_apply]
  have hn := h (ix1 n)
  have e : startCol tok (ix2 n (0 : Fin 1)) = tok (ix1 n) := by
    rw [startCol_apply]
    exact wrapped_of_lt tok (ix1 n) hn
  refine congrArg tab ?_
  refine congrArg (fun r : Fin 1000 => ix2 r k) (Fin.ext ?_)
  show min (startCol tok (ix2 n (0 : Fin 1))).toInt.toNat 999 = (Cert.Spec.row (tok (ix1 n))).val
  rw [e]
  exact clamp_of_lt hn

end Cert.ReferenceIdeal.RefValue

end
-- ==== Proof.lean ====
/-
  The certificate of the SparseCore embedding lookup against `jnp.take`: three frames, the (empty) idealization
  ledger, and the equality of the two idealized programs' results.
  Both kernel programs (the printed one at the bit-level instance, its idealization at the exact one) are the same
  text, so one run theorem, generic in the float instance, serves both: every weakly fair execution of the device's
  thirty-five threads terminates with the tokens and the table unchanged and the result array at
  `Spec.G tokens table` — row `n` of the result is the table's row `tokens n` — provided every token is below 1000,
  which the precondition `0 ≤ tokens ≤ 999` gives. The reference's run ends with its result at the composed term of
  its host operations, and under the same range fact that term is `Spec.G tokens table` too: the wrap of negative
  indices is not taken, the bounds mask is all true, and the clamped host gather reads row `tokens n`. No float is
  computed on either side, so the table's finiteness is never used.
-/
import proofs.«218014_g22170621182349_cont_8to1_1384_14_alg».proof.Defs
import proofs.«218014_g22170621182349_cont_8to1_1384_14_alg».proof.Proof.Gen.Kernel
import proofs.«218014_g22170621182349_cont_8to1_1384_14_alg».proof.Proof.Gen.Kernel.Skeleton
import proofs.«218014_g22170621182349_cont_8to1_1384_14_alg».proof.Proof.Gen.KernelIdeal
import proofs.«218014_g22170621182349_cont_8to1_1384_14_alg».proof.Proof.Gen.KernelIdeal.Skeleton
import proofs.«218014_g22170621182349_cont_8to1_1384_14_alg».proof.Proof.Gen.ReferenceIdeal
import proofs.«218014_g22170621182349_cont_8to1_1384_14_alg».proof.Proof.Gen.Pre_input_domain
import proofs.«218014_g22170621182349_cont_8to1_1384_14_alg».proof.Proof.PreRange
import proofs.«218014_g22170621182349_cont_8to1_1384_14_alg».proof.Proof.KBBody
import proofs.«218014_g22170621182349_cont_8to1_1384_14_alg».proof.Proof.KIBody
import proofs.«218014_g22170621182349_cont_8to1_1384_14_alg».proof.Proof.RefRun
import proofs.«218014_g22170621182349_cont_8to1_1384_14_alg».proof.Proof.RefValue
import Idealize.ShloMosaic.Adequacy
import Idealize.ShloMosaic.Init

noncomputable section

namespace Cert.Proof

open Idealize.ShloMosaic Idealize.SL.Sem

/-- The precondition gives the range fact the kernel's run asks for, at the bit-level program … -/
theorem okB [Cert.Pre_input_domain.Facts] (m : (ℓ : Loc Cert.Kernel.nD Cert.Kernel.τ Cert.Kernel.sig) → Buf (Elt Bits) ℓ)
    (h : Cert.Pre_Kernel m) : Cert.Proof.KB.PreOK m :=
  fun d => Cert.Proof.PreRange.inRange_of_pre _ _ (h d)

/-- … and at the idealized one. -/
theorem okI [Cert.Pre_input_domain.Facts] (m : (ℓ : Loc Cert.KernelIdeal.nD Cert.KernelIdeal.τ Cert.KernelIdeal.sig) → Buf (Elt Ideal) ℓ)
    (h : Cert.Pre_KernelIdeal m) : Cert.Proof.KI.PreOK m :=
  fun d => Cert.Proof.PreRange.inRange_of_pre _ _ (h d)

theorem frame_k [Cert.Kernel.Facts] [Cert.Pre_input_domain.Facts] : Cert.frame_Kernel := fun m ρ hpre =>
  (θ_run Cert.Kernel.defs _ _).mono (fun _ h c => (h c).2) (Cert.Proof.KB.run_main (F := Bits) m ρ (okB m hpre))

theorem frame_ki [Cert.KernelIdeal.Facts] [Cert.Pre_input_domain.Facts] : Cert.frame_KernelIdeal := fun m ρ hpre =>
  (θ_run Cert.KernelIdeal.defs _ _).mono (fun _ h c => (h c).2) (Cert.Proof.KI.run_main (F := Ideal) m ρ (okI m hpre))

theorem frame_ri [Cert.ReferenceIdeal.Facts] [Cert.Pre_input_domain.Facts] : Cert.frame_ReferenceIdeal := fun m ρ _ =>
  (θ_run Cert.ReferenceIdeal.defs _ _).mono (fun _ h c => (h c).2) (Cert.ReferenceIdeal.RefRun.run m ρ)

/-- Both idealized programs end with the result at `Spec.G` of the (agreeing) arguments. -/
theorem algebraic [Cert.KernelIdeal.Facts] [Cert.ReferenceIdeal.Facts] [Cert.Pre_input_domain.Facts] :
    Cert.algebraic_KernelIdeal_ReferenceIdeal := by
  intro m ρ m' ρ' hpre hagree
  have hok := okI m hpre
  refine ⟨fun c => Cert.Proof.KI.GG m c, Cert.Proof.KI.run_main (F := Ideal) m ρ hok, ?_⟩
  refine (θ_run Cert.ReferenceIdeal.defs _ _).mono (fun _ h c => ⟨(h c).1.trans ?_, (h c).2⟩) (Cert.ReferenceIdeal.RefRun.run m' ρ')
  rw [(hagree c).1, (hagree c).2]
  exact Cert.ReferenceIdeal.RefValue.refTerm_eq _ _ (hok c)

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
